-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_127" .f32 0x3C010204#32 ((1 / 127 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S1 : Shape := ⟨1, ![1]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S4096 .f32) (main_arg5 : FVec F S4096 .f32) (main_arg6 : FVec F S1 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S8x2048x4096 .f32) (main_arg1 : FVec F S4096x4096 .f32) (main_arg2 : FVec F S4096 .f32) (main_arg3 : FVec F S4096 .f32) (main_arg4 : FVec F S4096 .f32) (main_arg5 : FVec F S4096 .f32) (main_arg6 : FVec F S1 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S8x2048x4096 : Shape := ⟨3, ![8, 2048, 4096]⟩
abbrev S4096x4096 : Shape := ⟨2, ![4096, 4096]⟩
abbrev S4096 : Shape := ⟨1, ![4096]⟩
abbrev S1 : Shape := ⟨1, ![1]⟩
abbrev S_ : Shape := ⟨0, ![]⟩
abbrev S16384x4096 : Shape := ⟨2, ![16384, 4096]⟩
abbrev S1x4096 : Shape := ⟨2, ![1, 4096]⟩
abbrev S1x1 : Shape := ⟨2, ![1, 1]⟩
abbrev S64x4096 : Shape := ⟨2, ![64, 4096]⟩
abbrev S64 : Shape := ⟨1, ![64]⟩
abbrev S64x1 : Shape := ⟨2, ![64, 1]⟩

abbrev nBuf : Space → Nat
  | .hbm => 26
  | .vmem => 10
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S1, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S4096x4096, .f32⟩
  | .hbm, ⟨12, _⟩ => ⟨S_, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .bf16⟩
  | .hbm, ⟨18, _⟩ => ⟨S16384x4096, .f32⟩
  | .hbm, ⟨19, _⟩ => ⟨S1x4096, .f32⟩
  | .hbm, ⟨20, _⟩ => ⟨S1x4096, .f32⟩
  | .hbm, ⟨21, _⟩ => ⟨S1x4096, .f32⟩
  | .hbm, ⟨22, _⟩ => ⟨S1x4096, .f32⟩
  | .hbm, ⟨23, _⟩ => ⟨S1x1, .f32⟩
  | .hbm, ⟨24, _⟩ => ⟨S16384x4096, .f32⟩
  | .hbm, ⟨25, _⟩ => ⟨S8x2048x4096, .f32⟩
  | .local _ .vmem, ⟨0, _⟩ => ⟨S64x4096, .f32⟩
  | .local _ .vmem, ⟨1, _⟩ => ⟨S64x4096, .f32⟩
  | .local _ .vmem, ⟨2, _⟩ => ⟨S4096x4096, .bf16⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x1, .f32⟩
  | .local _ .vmem, ⟨8, _⟩ => ⟨S64x4096, .f32⟩
  | .local _ .vmem, ⟨9, _⟩ => ⟨S64x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S4096x4096 : S_.BroadcastsInDim S4096x4096 (![] : Fin 0 → Fin S4096x4096.rank)
  transposes_S4096x4096_S4096x4096_1_0 : S4096x4096.Transposes [1, 0] S4096x4096
  bitsLt_bf16_f32 : FTy.bits .bf16 < FTy.bits .f32
  shapeCasts_S8x2048x4096_S16384x4096 : S8x2048x4096.ShapeCasts S16384x4096
  shapeCasts_S4096_S1x4096 : S4096.ShapeCasts S1x4096
  shapeCasts_S1_S1x1 : S1.ShapeCasts S1x1
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S64x4096 : S1x4096.Broadcasts S64x4096
  reduces_S64x4096_S64 : S64x4096.Reduces [1] S64
  shapeCasts_S64_S64x1 : S64.ShapeCasts S64x1
  broadcasts_S64x1_S64x4096 : S64x1.Broadcasts S64x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x4096 : S1x1.Broadcasts S64x4096
  shapeCasts_S16384x4096_S8x2048x4096 : S16384x4096.ShapeCasts S8x2048x4096
  dot_S64x4096_S4096x4096_S64x4096_1_0_0_1_n_n_wf : DotDims.WF S64x4096 S4096x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S16384x4096.size a
  hwx0_0 : ∀ i : grid0.Coords, EltTy.bits .f32 = 32 ∨ (Rect.block (s := S16384x4096) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x4096.size a ≤ S16384x4096.size a
  hwx0_7 : ∀ i : grid0.Coords, EltTy.bits .f32 = 32 ∨ (Rect.block (s := S16384x4096) S64x4096.size (cc0_transform_7 i) (hinb0_7 i)).WholeWords (EltTy.packing .f32)

variable [Facts₀]

def dot_S64x4096_S4096x4096_S64x4096_1_0_0_1_n_n : DotDims S64x4096 S4096x4096 S64x4096 where
  lhsContracting := [1]
  rhsContracting := [0]
  lhsNonContracting := [0]
  rhsNonContracting := [1]
  lhsBatch := []
  rhsBatch := []
  wf := dot_S64x4096_S4096x4096_S64x4096_1_0_0_1_n_n_wf

abbrev win0_0 : Pipeline.Window sig grid0 :=
  Pipeline.Window.ofSpec (Memref.whole main_v7) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S64x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S1 : Shape := ⟨1, ![1]⟩
abbrev S_ : Shape := ⟨0, ![]⟩
abbrev S1x1x4096 : Shape := ⟨3, ![1, 1, 4096]⟩
abbrev S8x2048 : Shape := ⟨2, ![8, 2048]⟩
abbrev S8x2048x1 : Shape := ⟨3, ![8, 2048, 1]⟩
abbrev S1x1x1 : Shape := ⟨3, ![1, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S1, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S4096x4096, .f32⟩
  | .hbm, ⟨12, _⟩ => ⟨S_, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S8x2048x4096, .f32⟩
  | .hbm, ⟨17, _⟩ => ⟨S1x1x4096, .f32⟩
  | .hbm, ⟨18, _⟩ => ⟨S8x2048x4096, .f32⟩
  | .hbm, ⟨19, _⟩ => ⟨S8x2048x4096, .f32⟩
  | .hbm, ⟨20, _⟩ => ⟨S1x1x4096, .f32⟩
  | .hbm, ⟨21, _⟩ => ⟨S8x2048x4096, .f32⟩
  | .hbm, ⟨22, _⟩ => ⟨S8x2048x4096, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x4096, .f32⟩
  | .hbm, ⟨30, _⟩ => ⟨S8x2048x4096, .f32⟩
  | .hbm, ⟨31, _⟩ => ⟨S8x2048x4096, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x4096, .f32⟩
  | .hbm, ⟨39, _⟩ => ⟨S8x2048x4096, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x4096, .f32⟩
  | .hbm, ⟨45, _⟩ => ⟨S8x2048x4096, .f32⟩
  | .hbm, ⟨46, _⟩ => ⟨S1x1x4096, .f32⟩
  | .hbm, ⟨47, _⟩ => ⟨S8x2048x4096, .f32⟩
  | .hbm, ⟨48, _⟩ => ⟨S8x2048x4096, .f32⟩
  | .hbm, ⟨49, _⟩ => ⟨S1x1x4096, .f32⟩
  | .hbm, ⟨50, _⟩ => ⟨S8x2048x4096, .f32⟩
  | .hbm, ⟨51, _⟩ => ⟨S8x2048x4096, .f32⟩
  | .hbm, ⟨52, _⟩ => ⟨S1x1x1, .f32⟩
  | .hbm, ⟨53, _⟩ => ⟨S8x2048x4096, .f32⟩
  | .hbm, ⟨54, _⟩ => ⟨S8x2048x4096, .f32⟩
  | .hbm, ⟨55, _⟩ => ⟨S8x2048x4096, .f32⟩
  | .hbm, ⟨56, _⟩ => ⟨S_, .f32⟩
  | .hbm, ⟨57, _⟩ => ⟨S8x2048x4096, .f32⟩
  | .hbm, ⟨58, _⟩ => ⟨S8x2048x4096, .f32⟩
  | .hbm, ⟨59, _⟩ => ⟨S8x2048x4096, .f32⟩
  | .hbm, ⟨60, _⟩ => ⟨S_, .f32⟩
  | .hbm, ⟨61, _⟩ => ⟨S8x2048x4096, .f32⟩
  | .hbm, ⟨62, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  reducesTo_S8x2048x4096_S8x2048_d2 : S8x2048x4096.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x4096_0_1_2 : S8x2048x1.BroadcastsInDim S8x2048x4096 (![0, 1, 2] : Fin 3 → Fin S8x2048x4096.rank)
  bcast_S1_S1x1x1_2 : S1.BroadcastsInDim S1x1x1 (![2] : Fin 1 → Fin S1x1x1.rank)
  bcast_S1x1x1_S8x2048x4096_0_1_2 : S1x1x1.BroadcastsInDim S8x2048x4096 (![0, 1, 2] : Fin 3 → Fin S8x2048x4096.rank)
  bcast_S_S8x2048x4096 : S_.BroadcastsInDim S8x2048x4096 (![] : Fin 0 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.LibRowSum.lean ====
/-
  A sum along the rows of a matrix, read at a row.

  Summing a [a, b] matrix over its second axis gives a vector of length a whose entry r is Σ_k x[r, k]. Over the
  extended reals this holds of the vector unit's add-reduction whatever order it sums in: addition of extended
  reals is commutative and associative, so the reduction is the finite sum over the dropped axis's coordinates,
  and the source index lying over row r with column k put back is (r, k).
-/
import Idealize.ShloMosaic.PureOps.Ideal.Laws
import Idealize.ShloMosaic.Lib.ValueIdx

noncomputable section

open scoped BigOperators

namespace Idealize.ShloMosaic.RowSum

open Idealize.ShloMosaic Idealize.ShloMosaic.ValueIdx

variable {a b : ℕ}

/-- The source index over row `r` with column `k` inserted on the dropped axis is `(r, k)`. -/
theorem lift_row (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- THE ROW SUM: an f32 add-reduction of a [a, b] matrix over its columns, from the zero word, has at row `r` the
    entry Σ_k x[r, k]. The accumulator's side condition is taken as the equation between the two zero words that a
    printed reduction carries. -/
theorem rowSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (lift_row h r k)

end Idealize.ShloMosaic.RowSum

end
-- ==== Proof.RowSpec.lean ====
/-
  The mathematics of one output row, on the extended reals.

  A row x of 4096 inputs is sent through a linear layer with a weight matrix W (4096 × 4096, rows indexed by the
  output channel), a bias b and a per-channel scale s:            y_o = (Σ_k x_k · W_{o,k} + b_o) · s_o.
  The row is then normalised over its 4096 channels,              μ = (Σ_o y_o) / 4096,   d_o = y_o − μ,
                                                                  ρ = rsqrt((Σ_o d_o · d_o) / 4096 + ε),
  given an affine map with gain g and offset β,                   z_o = d_o · ρ · g_o + β_o,
  squashed and put on the grid of 127ths:                         out_o = roundeven(tanh(z_o / q) · 127) · (1/127).
  4096, ε and 127 are the f32 words both programs spell; only the last factor 1/127 is the exact rational.
  The one law used is that dividing an extended real by the real number 127 is multiplying it by 1/127.
-/
import Idealize.ShloMosaic.PureOps.Ideal.Laws
import Idealize.ShloMosaic.Lib.ValueIdx

noncomputable section

open scoped BigOperators

namespace Cert.RowQuant

open Idealize.ShloMosaic Idealize.ShloMosaic.ValueIdx

/-- The linear layer's output channel `o`: (Σ_k x_k · W_{o,k} + b_o) · s_o. -/
def affine (x : Fin 4096 → EReal) (W : Fin 4096 → Fin 4096 → EReal) (b s : Fin 4096 → EReal) (o : Fin 4096) : EReal :=
  ((∑ k : Fin 4096, x k * W o k) + b o) * s o

/-- The row's mean: its sum divided by the word for 4096. -/
def mean (y : Fin 4096 → EReal) : EReal :=
  Ideal.div (∑ o : Fin 4096, y o) (Ideal.ofBits .f32 0x45800000#32)

/-- A channel's deviation from the row's mean. -/
def dev (y : Fin 4096 → EReal) (o : Fin 4096) : EReal := y o - mean y

/-- The reciprocal standard deviation: rsqrt of the mean squared deviation plus the word for 1e-5. -/
def invStd (y : Fin 4096 → EReal) : EReal :=
  Ideal.rsqrt (Ideal.div (∑ o : Fin 4096, dev y o * dev y o) (Ideal.ofBits .f32 0x45800000#32)
    + Ideal.ofBits .f32 0x3727C5AC#32)

/-- The normalised channel with gain and offset. -/
def normed (y g β : Fin 4096 → EReal) (o : Fin 4096) : EReal := dev y o * invStd y * g o + β o

/-- Squash by tanh of z / q, scale by the word for 127, round half to even, and scale back by the rational 1/127. -/
def quant (z q : EReal) : EReal :=
  Ideal.liftRound Ideal.roundHalfEven (Ideal.tanh (Ideal.div z q) * Ideal.ofBits .f32 0x42FE0000#32)
    * ((1 / 127 : ℝ) : EReal)

/-- One output channel of one row. -/
def rowOut (x : Fin 4096 → EReal) (W : Fin 4096 → Fin 4096 → EReal) (b s g β : Fin 4096 → EReal) (q : EReal)
    (o : Fin 4096) : EReal :=
  quant (normed (affine x W b s) g β o) q

/-- The word 0x42FE0000 is the real number 127. -/
theorem ofBits_127 : Ideal.ofBits .f32 0x42FE0000#32 = ((127 : ℝ) : EReal) := by
  simp [Ideal.ofBits, Ideal.ieee, -EReal.coe_mul]; norm_num

/-- The word of all zero bits is 0. -/
theorem ofBits_zero : Ideal.ofBits .f32 0x00000000#32 = 0 := Ideal.ofBits_zero_f32

/-- DIVIDING BY 127 IS MULTIPLYING BY 1/127, on every extended real: the reference's last step is the kernel's. -/
theorem quant_of_div (z q : EReal) :
    Ideal.div (Ideal.liftRound Ideal.roundHalfEven (Ideal.tanh (Ideal.div z q) * Ideal.ofBits .f32 0x42FE0000#32))
      (Ideal.ofBits .f32 0x42FE0000#32) = quant z q := by
  unfold quant
  rw [show Ideal.div (Ideal.liftRound Ideal.roundHalfEven (Ideal.tanh (Ideal.div z q) * Ideal.ofBits .f32 0x42FE0000#32))
        (Ideal.ofBits .f32 0x42FE0000#32)
      = Ideal.div (Ideal.liftRound Ideal.roundHalfEven (Ideal.tanh (Ideal.div z q) * Ideal.ofBits .f32 0x42FE0000#32))
        ((127 : ℝ) : EReal) from congrArg _ ofBits_127]
  exact Ideal.div_coe (by norm_num : (127 : ℝ) ≠ 0) _

/-! ## The whole result array -/

/-- THE RESULT over f32[8, 2048, 4096]: entry (p, t, o) is channel `o` of the row function of the input row (p, t, ·), with
    the weight matrix `W`, and the bias, scale, gain and offset vectors and the one quantisation scale as they are given. -/
def result (x : (⟨3, ![8, 2048, 4096]⟩ : Shape).Idx → EReal) (W : (⟨2, ![4096, 4096]⟩ : Shape).Idx → EReal)
    (b s g β : (⟨1, ![4096]⟩ : Shape).Idx → EReal) (q : (⟨1, ![1]⟩ : Shape).Idx → EReal) :
    (⟨3, ![8, 2048, 4096]⟩ : Shape).Idx → EReal := fun i =>
  rowOut (fun k => x (ix3 (i 0) (i 1) k)) (fun o k => W (ix2 o k)) (fun o => b (ix1 o)) (fun o => s (ix1 o))
    (fun o => g (ix1 o)) (fun o => β (ix1 o)) (q (ix1 (0 : Fin 1))) (i 2)

theorem result_apply (x : (⟨3, ![8, 2048, 4096]⟩ : Shape).Idx → EReal) (W : (⟨2, ![4096, 4096]⟩ : Shape).Idx → EReal)
    (b s g β : (⟨1, ![4096]⟩ : Shape).Idx → EReal) (q : (⟨1, ![1]⟩ : Shape).Idx → EReal)
    (p : Fin 8) (t : Fin 2048) (o : Fin 4096) :
    result x W b s g β q (ix3 p t o)
      = rowOut (fun k => x (ix3 p t k)) (fun o k => W (ix2 o k)) (fun o => b (ix1 o)) (fun o => s (ix1 o))
          (fun o => g (ix1 o)) (fun o => β (ix1 o)) (q (ix1 (0 : Fin 1))) o := rfl

/-- The same rows laid out as a matrix [M, 4096] against the TRANSPOSED weight and row vectors [1, 4096], a [1, 1] scale:
    entry (r, o) is channel `o` of the row function of row `r`. At M = 64 this is a block, at M = 16384 the whole matrix. -/
def matResult {M : ℕ} (X : (⟨2, ![M, 4096]⟩ : Shape).Idx → EReal) (Wt : (⟨2, ![4096, 4096]⟩ : Shape).Idx → EReal)
    (b s g β : (⟨2, ![1, 4096]⟩ : Shape).Idx → EReal) (q : (⟨2, ![1, 1]⟩ : Shape).Idx → EReal) :
    (⟨2, ![M, 4096]⟩ : Shape).Idx → EReal := fun j =>
  rowOut (fun k => X (ix2 (j 0) k)) (fun o k => Wt (ix2 k o)) (fun o => b (ix2 (0 : Fin 1) o)) (fun o => s (ix2 (0 : Fin 1) o))
    (fun o => g (ix2 (0 : Fin 1) o)) (fun o => β (ix2 (0 : Fin 1) o)) (q (ix2 (0 : Fin 1) (0 : Fin 1))) (j 1)

theorem matResult_apply {M : ℕ} (X : (⟨2, ![M, 4096]⟩ : Shape).Idx → EReal) (Wt : (⟨2, ![4096, 4096]⟩ : Shape).Idx → EReal)
    (b s g β : (⟨2, ![1, 4096]⟩ : Shape).Idx → EReal) (q : (⟨2, ![1, 1]⟩ : Shape).Idx → EReal) (r : Fin M) (o : Fin 4096) :
    matResult X Wt b s g β q (ix2 r o)
      = rowOut (fun k => X (ix2 r k)) (fun o k => Wt (ix2 k o)) (fun o => b (ix2 (0 : Fin 1) o)) (fun o => s (ix2 (0 : Fin 1) o))
          (fun o => g (ix2 (0 : Fin 1) o)) (fun o => β (ix2 (0 : Fin 1) o)) (q (ix2 (0 : Fin 1) (0 : Fin 1))) o := rfl

end Cert.RowQuant

end
-- ==== Proof.KernelRow.lean ====
/-
  What the kernel body stores, read at one entry of the 64 × 4096 block.

  The body's arithmetic is the composition of four stages: the linear layer (a matrix product of the block's 64 rows
  with the resident transposed weight, plus the bias row, times the scale row); the column of row means; the
  normalisation with gain and offset; and the squashing to the grid of 127ths. Each stage read at row r and channel o
  is the corresponding piece of the row function of the block's row r: the matrix product is a sum over the 4096
  contraction coordinates, a lane reduction is a sum over the 4096 channels of the row, a broadcast row vector reads
  its channel o, a broadcast column reads its row r, and a change of float format is the identity on the extended
  reals. So entry (r, o) of what is stored is channel o of the row function of row r.
-/
import proofs.«111100_j43576738185534_1_alg».proof.Proof.Gen.KernelIdeal.Skeleton
import proofs.«111100_j43576738185534_1_alg».proof.Proof.LibDotInner
import proofs.«111100_j43576738185534_1_alg».proof.Proof.LibKeepdimsLayout
import proofs.«111100_j43576738185534_1_alg».proof.Proof.LibRowSum
import proofs.«111100_j43576738185534_1_alg».proof.Proof.RowSpec
import Idealize.ShloMosaic.Lib.Pipeline.Value
import Idealize.ShloMosaic.Lib.ValueLayout
import Idealize.ShloMosaic.PureOps.IdealRules

noncomputable section

open scoped BigOperators

namespace Cert.KernelIdeal.RowValue

open Cert.KernelIdeal Idealize.ShloMosaic Idealize.ShloMosaic.ValueIdx Cert.RowQuant

/-- The matrix product's dimension record: rows of the left operand against columns of the right. -/
abbrev dotD := dot_S64x4096_S4096x4096_S64x4096_1_0_0_1_n_n

/-! ## Which operand coordinate is which -/

theorem dot_l0 (j : S64x4096.Idx) (q : dotD.contr.Idx) : (dotD.lhsIdx j q 0).val = (j 0).val := by
  unfold DotDims.lhsIdx
  rw [dif_neg (show ¬(0 : Fin S64x4096.rank) ∈ dotD.lhsBatch by decide),
    dif_pos (show (0 : Fin S64x4096.rank) ∈ dotD.lhsNonContracting by decide)]
  rfl

theorem dot_l1 (j : S64x4096.Idx) (q : dotD.contr.Idx) : (dotD.lhsIdx j q 1).val = (q ⟨0, by decide⟩).val :=
  dotD.lhsIdx_val_of_single rfl j q

theorem dot_r0 (j : S64x4096.Idx) (q : dotD.contr.Idx) : (dotD.rhsIdx j q 0).val = (q ⟨0, by decide⟩).val :=
  dotD.rhsIdx_val_of_single rfl j q

theorem dot_r1 (j : S64x4096.Idx) (q : dotD.contr.Idx) : (dotD.rhsIdx j q 1).val = (j 1).val := by
  unfold DotDims.rhsIdx
  rw [dif_neg (show ¬(1 : Fin S4096x4096.rank) ∈ dotD.rhsBatch by decide),
    dif_pos (show (1 : Fin S4096x4096.rank) ∈ dotD.rhsNonContracting by decide)]
  rfl

/-- A one-entry matrix broadcast to any matrix reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (i : Fin a) (j : Fin b) :
    broadcastTo ⟨2, ![a, b]⟩ v h (ix2 i j) = v (ix2 (0 : Fin 1) (0 : Fin 1)) :=
  broadcastTo_apply v h (ix2 i j) (ix2 (0 : Fin 1) (0 : Fin 1)) fun ax => by
    match ax with
    | ⟨0, _⟩ => rfl
    | ⟨1, _⟩ => rfl

/-! ## The four stages -/

/-- The linear layer on the block: rows × transposed weight, plus the bias row, times the scale row. -/
def lin (x : FVec Ideal S64x4096 .f32) (w : FVec Ideal S4096x4096 .bf16) (b s : FVec Ideal S1x4096 .f32) :
    FVec Ideal S64x4096 .f32 :=
  mulf (addf (matmul dotD none
      (truncf .bf16 (shapeCast S64x4096 x Gen.shapeCasts_S64x4096_S64x4096 : FVec Ideal S64x4096 .f32) Gen.bitsLt_bf16_f32 : FVec Ideal S64x4096 .bf16)
      (shapeCast S4096x4096 w Gen.shapeCasts_S4096x4096_S4096x4096 : FVec Ideal S4096x4096 .bf16) (constant S64x4096 .f32 0x00000000#32))
    (broadcastTo S64x4096 (shapeCast S1x4096 b Gen.shapeCasts_S1x4096_S1x4096 : FVec Ideal S1x4096 .f32) Gen.broadcasts_S1x4096_S64x4096))
    (broadcastTo S64x4096 (shapeCast S1x4096 s Gen.shapeCasts_S1x4096_S1x4096 : FVec Ideal S1x4096 .f32) Gen.broadcasts_S1x4096_S64x4096)

/-- The column of row means: each row's sum over its channels, divided by the word for 4096. -/
def colMean (y : FVec Ideal S64x4096 .f32) : FVec Ideal S64x1 .f32 :=
  divf (shapeCast S64x1 (multiReduction .add [1] S64 y 0x00000000#32 Gen.reduces_S64x4096_S64 (.inl rfl) rfl : FVec Ideal S64 .f32)
      Gen.shapeCasts_S64_S64x1 : FVec Ideal S64x1 .f32) (broadcast S64x1 (Scalar.ofBits .f32 0x45800000#32 : Ideal .f32))

/-- Each entry less its row's mean. -/
def centre (y : FVec Ideal S64x4096 .f32) : FVec Ideal S64x4096 .f32 :=
  subf y (broadcastTo S64x4096 (colMean y) Gen.broadcasts_S64x1_S64x4096)

/-- The normalisation with gain and offset rows. -/
def lnorm (y : FVec Ideal S64x4096 .f32) (g β : FVec Ideal S1x4096 .f32) : FVec Ideal S64x4096 .f32 :=
  addf (mulf (mulf (centre y)
      (broadcastTo S64x4096 (rsqrt (addf (colMean (mulf (centre y) (centre y)))
        (broadcast S64x1 (Scalar.ofBits .f32 0x3727C5AC#32 : Ideal .f32))) : FVec Ideal S64x1 .f32) Gen.broadcasts_S64x1_S64x4096))
      (broadcastTo S64x4096 (shapeCast S1x4096 g Gen.shapeCasts_S1x4096_S1x4096 : FVec Ideal S1x4096 .f32) Gen.broadcasts_S1x4096_S64x4096))
    (broadcastTo S64x4096 (shapeCast S1x4096 β Gen.shapeCasts_S1x4096_S1x4096 : FVec Ideal S1x4096 .f32) Gen.broadcasts_S1x4096_S64x4096)

/-- The squashing to the grid of 127ths. -/
def squash (z : FVec Ideal S64x4096 .f32) (q : FVec Ideal S1x1 .f32) : FVec Ideal S64x4096 .f32 :=
  mulf (roundeven (mulf (tanh (divf z (broadcastTo S64x4096 (shapeCast S1x1 q Gen.shapeCasts_S1x1_S1x1 : FVec Ideal S1x1 .f32) Gen.broadcasts_S1x1_S64x4096)))
      (broadcast S64x4096 (Scalar.ofBits .f32 0x42FE0000#32 : Ideal .f32))))
    (broadcast S64x4096 (Named.named κ "inv_127" 0x3C010204#32 : Ideal .f32))

/-- The body's first payload is the normalisation of the linear layer. -/
theorem pay2_eq (x : Vec Ideal S64x4096 .f32) (w : Vec Ideal S4096x4096 .bf16) (b s g β : Vec Ideal S1x4096 .f32) :
    Gen.k0_pay2 x w b s g β = lnorm (lin x w b s) g β := rfl

/-- The body's stored payload is the squashing of the first. -/
theorem pay1_eq (z : FVec Ideal S64x4096 .f32) (q : Vec Ideal S1x1 .f32) : Gen.k0_pay1 z q = squash z q := rfl

/-! ## Each stage at an entry -/

theorem lin_apply (x : Vec Ideal S64x4096 .f32) (w : Vec Ideal S4096x4096 .bf16) (b s : Vec Ideal S1x4096 .f32)
    (r : Fin 64) (o : Fin 4096) :
    lin x w b s (ix2 r o) = affine (fun k => x (ix2 r k)) (fun o k => w (ix2 k o)) (fun o => b (ix2 (0 : Fin 1) o))
      (fun o => s (ix2 (0 : Fin 1) o)) o := by
  have hm := DotInner.matmul_zero_apply dotD rfl rfl dot_l0 dot_l1 dot_r0 dot_r1 none
    (truncf .bf16 (shapeCast S64x4096 x Gen.shapeCasts_S64x4096_S64x4096 : FVec Ideal S64x4096 .f32) Gen.bitsLt_bf16_f32 : FVec Ideal S64x4096 .bf16)
    (shapeCast S4096x4096 w Gen.shapeCasts_S4096x4096_S4096x4096 : FVec Ideal S4096x4096 .bf16) r o
  unfold lin affine
  rw [mulf_apply, addf_apply]
  refine congrArg₂ (· * ·) (congrArg₂ (· + ·) (hm.trans ?_) ?_) ?_
  · refine Finset.sum_congr rfl fun k _ => ?_
    rw [truncf_apply, shapeCast_self, shapeCast_self]
  · rw [broadcastTo_1b_ab_apply, shapeCast_self]
  · rw [broadcastTo_1b_ab_apply, shapeCast_self]

theorem colMean_apply (y : FVec Ideal S64x4096 .f32) (r : Fin 64) (u : Fin 1) :
    colMean y (ix2 r u) = mean (fun o => y (ix2 r o)) := by
  unfold colMean mean
  show Ideal.div (shapeCast S64x1 (multiReduction .add [1] S64 y 0x00000000#32 _ _ _) _ (ix2 r u))
    (Ideal.ofBits .f32 0x45800000#32) = _
  rw [Cert.LayoutKeepdims.shapeCast_a_a1_apply, RowSum.rowSum_apply]

theorem centre_apply (y : FVec Ideal S64x4096 .f32) (r : Fin 64) (o : Fin 4096) :
    centre y (ix2 r o) = dev (fun o => y (ix2 r o)) o := by
  unfold centre dev
  show y (ix2 r o) - broadcastTo S64x4096 (colMean y) _ (ix2 r o) = _
  rw [Cert.LayoutKeepdims.broadcastTo_a1_ab_apply, colMean_apply]

theorem lnorm_apply (y : FVec Ideal S64x4096 .f32) (g β : Vec Ideal S1x4096 .f32) (r : Fin 64) (o : Fin 4096) :
    lnorm y g β (ix2 r o) = normed (fun o => y (ix2 r o)) (fun o => g (ix2 (0 : Fin 1) o)) (fun o => β (ix2 (0 : Fin 1) o)) o := by
  unfold lnorm normed invStd
  show centre y (ix2 r o)
      * broadcastTo S64x4096 (rsqrt (addf (colMean (mulf (centre y) (centre y))) (broadcast S64x1 (Scalar.ofBits .f32 0x3727C5AC#32)))) _ (ix2 r o)
      * broadcastTo S64x4096 (shapeCast S1x4096 g _) _ (ix2 r o) + broadcastTo S64x4096 (shapeCast S1x4096 β _) _ (ix2 r o) = _
  rw [Cert.LayoutKeepdims.broadcastTo_a1_ab_apply, broadcastTo_1b_ab_apply, broadcastTo_1b_ab_apply, shapeCast_self, shapeCast_self,
    centre_apply]
  show _ * Ideal.rsqrt (colMean (mulf (centre y) (centre y)) (ix2 r (0 : Fin 1)) + Ideal.ofBits .f32 0x3727C5AC#32) * _ + _ = _
  rw [colMean_apply]
  have hsq : (fun o => mulf (centre y) (centre y) (ix2 r o))
      = fun o => dev (fun o => y (ix2 r o)) o * dev (fun o => y (ix2 r o)) o :=
    funext fun o => by
      show centre y (ix2 r o) * centre y (ix2 r o) = _
      rw [centre_apply]
  rw [hsq]
  rfl

/-- The kernel's named reciprocal is the rational 1/127, by the certificate's table. -/
theorem inv_127 : Named.named (F := Ideal) κ "inv_127" (φ := .f32) 0x3C010204#32 = ((1 / 127 : ℝ) : EReal) :=
  IdealRules.named_const.ideal_named_scalar _ _ _ _ rfl

theorem squash_apply (z : FVec Ideal S64x4096 .f32) (q : Vec Ideal S1x1 .f32) (r : Fin 64) (o : Fin 4096) :
    squash z q (ix2 r o) = quant (z (ix2 r o)) (q (ix2 (0 : Fin 1) (0 : Fin 1))) := by
  unfold squash quant
  show Ideal.liftRound Ideal.roundHalfEven
      (Ideal.tanh (Ideal.div (z (ix2 r o)) (broadcastTo S64x4096 (shapeCast S1x1 q _) _ (ix2 r o))) * Ideal.ofBits .f32 0x42FE0000#32)
      * Named.named (F := Ideal) κ "inv_127" (φ := .f32) 0x3C010204#32 = _
  rw [broadcastTo_11_ab_apply, shapeCast_self, inv_127]

/-! ## The stored block -/

/-- WHAT THE BODY STORES is the matrix form of the row function of its seven loaded blocks. -/
theorem stored_eq (x0 : Vec Ideal S64x4096 .f32) (x1 : Vec Ideal S4096x4096 .bf16) (x2 x3 x4 x5 : Vec Ideal S1x4096 .f32)
    (x6 : Vec Ideal S1x1 .f32) :
    Gen.k0_pay1 (Gen.k0_pay2 x0 x1 x2 x3 x4 x5) x6 = matResult (M := 64) x0 x1 x2 x3 x4 x5 x6 := by
  funext j
  obtain ⟨r, o, rfl⟩ : ∃ (r : Fin 64) (o : Fin 4096), j = ix2 r o := ⟨j 0, j 1, eq_ix2 j⟩
  rw [pay1_eq, pay2_eq, squash_apply, lnorm_apply, matResult_apply]
  unfold rowOut
  have hy : (fun o => lin x0 x1 x2 x3 (ix2 r o))
      = affine (fun k => x0 (ix2 r k)) (fun o k => x1 (ix2 k o)) (fun o => x2 (ix2 (0 : Fin 1) o)) (fun o => x3 (ix2 (0 : Fin 1) o)) :=
    funext fun o => lin_apply x0 x1 x2 x3 r o
  rw [hy]

end Cert.KernelIdeal.RowValue

end
-- ==== Proof.KernelBlocks.lean ====
/-
  From the 256 blocks to the region's result matrix.

  Grid point t works on rows 64·t … 64·t + 63: the input window's and the output window's block index on the row axis
  is t, and on the channel axis 0; the weight, the four row vectors and the quantisation scale are whole arrays at
  every point. The body stores the matrix form of the row function of its loaded blocks, and a row of the block is a
  row of the whole matrix, so what point t writes back is block t of ONE matrix: the row function applied to every row
  of the 16384-row input matrix. Every row lies in the block of point row / 64, so the 256 blocks cover the result.
-/
import proofs.«111100_j43576738185534_1_alg».proof.Proof.Gen.KernelIdeal.Frame
import proofs.«111100_j43576738185534_1_alg».proof.Proof.KernelRow
import Idealize.ShloMosaic.Lib.Pipeline.Value

noncomputable section

namespace Cert.KernelIdeal.BlockValue

open Cert.KernelIdeal Cert.KernelIdeal.Gen Idealize.ShloMosaic Idealize.ShloMosaic.TcCoe Idealize.SL.Sem
open Idealize.ShloMosaic.ValueIdx Cert.RowQuant
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The printed index maps, decided over the 256 grid points: the input's and the output's block moves with the point
    along the rows; every other window's block is the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 256 := lt_of_lt_of_eq t.isLt N_0

/-! ## The input blocks, read off the arrays -/

/-- Row r of the input block at point t is row 64·t + r of the input matrix. -/
theorem blk0 (c : Dev nD) (t : Fin cfg0.N) (r : Fin 64) (k : Fin 4096) (hr : t.val * 64 + r.val < 16384) :
    iblk m c 0 t (ix2 r k) = V m c main_v7 (ix2 ⟨t.val * 64 + r.val, hr⟩ k) := by
  obtain ⟨e0, e1, -⟩ := idx_facts t
  show V m c main_v7 (((cfg0.win 0).blk t).view.emb (ix2 r k)) = V m c main_v7 (ix2 ⟨t.val * 64 + r.val, hr⟩ k)
  refine congrArg (V m c main_v7) (funext fun a => Fin.ext ?_)
  match a with
  | ⟨0, _⟩ => show win0_0.index t (0 : Fin 2) * 64 + 1 * r.val = t.val * 64 + r.val; omega
  | ⟨1, _⟩ => show win0_0.index t (1 : Fin 2) * 4096 + 1 * k.val = k.val; omega

/-- The weight window's block is the whole transposed weight. -/
theorem blk1 (c : Dev nD) (t : Fin cfg0.N) (y : S4096x4096.Idx) : iblk m c 1 t y = V m c main_v6 y := by
  obtain ⟨-, -, e0, e1, -⟩ := idx_facts t
  show V m c main_v6 (((cfg0.win 1).blk t).view.emb y) = V m c main_v6 y
  refine congrArg (V m c main_v6) (funext fun a => Fin.ext ?_)
  match a with
  | ⟨0, _⟩ => show win0_1.index t (0 : Fin 2) * 4096 + 1 * (y 0).val = (y 0).val; omega
  | ⟨1, _⟩ => show win0_1.index t (1 : Fin 2) * 4096 + 1 * (y 1).val = (y 1).val; omega

theorem blk2 (c : Dev nD) (t : Fin cfg0.N) (y : S1x4096.Idx) : iblk m c 2 t y = V m c main_v8 y := by
  obtain ⟨-, -, -, -, e0, e1, -⟩ := idx_facts t
  show V m c main_v8 (((cfg0.win 2).blk t).view.emb y) = V m c main_v8 y
  refine congrArg (V m c main_v8) (funext fun a => Fin.ext ?_)
  match a with
  | ⟨0, _⟩ => show win0_2.index t (0 : Fin 2) * 1 + 1 * (y 0).val = (y 0).val; omega
  | ⟨1, _⟩ => show win0_2.index t (1 : Fin 2) * 4096 + 1 * (y 1).val = (y 1).val; omega

theorem blk3 (c : Dev nD) (t : Fin cfg0.N) (y : S1x4096.Idx) : iblk m c 3 t y = V m c main_v9 y := by
  obtain ⟨-, -, -, -, -, -, e0, e1, -⟩ := idx_facts t
  show V m c main_v9 (((cfg0.win 3).blk t).view.emb y) = V m c main_v9 y
  refine congrArg (V m c main_v9) (funext fun a => Fin.ext ?_)
  match a with
  | ⟨0, _⟩ => show win0_3.index t (0 : Fin 2) * 1 + 1 * (y 0).val = (y 0).val; omega
  | ⟨1, _⟩ => show win0_3.index t (1 : Fin 2) * 4096 + 1 * (y 1).val = (y 1).val; omega

theorem blk4 (c : Dev nD) (t : Fin cfg0.N) (y : S1x4096.Idx) : iblk m c 4 t y = V m c main_v10 y := by
  obtain ⟨-, -, -, -, -, -, -, -, e0, e1, -⟩ := idx_facts t
  show V m c main_v10 (((cfg0.win 4).blk t).view.emb y) = V m c main_v10 y
  refine congrArg (V m c main_v10) (funext fun a => Fin.ext ?_)
  match a with
  | ⟨0, _⟩ => show win0_4.index t (0 : Fin 2) * 1 + 1 * (y 0).val = (y 0).val; omega
  | ⟨1, _⟩ => show win0_4.index t (1 : Fin 2) * 4096 + 1 * (y 1).val = (y 1).val; omega

theorem blk5 (c : Dev nD) (t : Fin cfg0.N) (y : S1x4096.Idx) : iblk m c 5 t y = V m c main_v11 y := by
  obtain ⟨-, -, -, -, -, -, -, -, -, -, e0, e1, -⟩ := idx_facts t
  show V m c main_v11 (((cfg0.win 5).blk t).view.emb y) = V m c main_v11 y
  refine congrArg (V m c main_v11) (funext fun a => Fin.ext ?_)
  match a with
  | ⟨0, _⟩ => show win0_5.index t (0 : Fin 2) * 1 + 1 * (y 0).val = (y 0).val; omega
  | ⟨1, _⟩ => show win0_5.index t (1 : Fin 2) * 4096 + 1 * (y 1).val = (y 1).val; omega

theorem blk6 (c : Dev nD) (t : Fin cfg0.N) (y : S1x1.Idx) : iblk m c 6 t y = V m c main_v12 y := by
  obtain ⟨-, -, -, -, -, -, -, -, -, -, -, -, e0, e1, -⟩ := idx_facts t
  show V m c main_v12 (((cfg0.win 6).blk t).view.emb y) = V m c main_v12 y
  refine congrArg (V m c main_v12) (funext fun a => Fin.ext ?_)
  match a with
  | ⟨0, _⟩ => show win0_6.index t (0 : Fin 2) * 1 + 1 * (y 0).val = (y 0).val; omega
  | ⟨1, _⟩ => show win0_6.index t (1 : Fin 2) * 1 + 1 * (y 1).val = (y 1).val; omega

/-! ## One matrix for all the blocks -/

/-- A block whose rows are rows 64·T … of a matrix has, as its row function, those rows of the matrix's. -/
theorem matResult_block (X : (⟨2, ![16384, 4096]⟩ : Shape).Idx → EReal) (xb : (⟨2, ![64, 4096]⟩ : Shape).Idx → EReal)
    (Wt : (⟨2, ![4096, 4096]⟩ : Shape).Idx → EReal) (b s g β : (⟨2, ![1, 4096]⟩ : Shape).Idx → EReal)
    (q : (⟨2, ![1, 1]⟩ : Shape).Idx → EReal) (r : Fin 64) (o : Fin 4096) (R : Fin 16384)
    (hx : ∀ k : Fin 4096, xb (ix2 r k) = X (ix2 R k)) :
    matResult (M := 64) xb Wt b s g β q (ix2 r o) = matResult (M := 16384) X Wt b s g β q (ix2 R o) := by
  rw [matResult_apply, matResult_apply]
  rw [show (fun k => xb (ix2 r k)) = fun k => X (ix2 R k) from funext hx]

/-- The region's result matrix: the row function on every row of the 16384-row input matrix the region finds. -/
abbrev wholeResult (c : Dev nD) : S16384x4096.Idx → EReal :=
  matResult (M := 16384) (V m c main_v7) (V m c main_v6) (V m c main_v8) (V m c main_v9) (V m c main_v10) (V m c main_v11)
    (V m c main_v12)

/-- WHAT POINT t WRITES BACK is block t of the region's result matrix. -/
theorem flushed_eq (c : Dev nD) (t : Fin cfg0.N) :
    (dats m 0 c).flushed 7 t = ((cfg0.win 7).blk t).view.read (Elt Ideal) (wholeResult m c) := by
  show (cfg0.win 7).cut (grid0.coords t) ((dats m 0 c).after 7 t) = _
  rw [after0_7]
  unfold out0_7
  rw [View.canon_unit_zero hz]
  simp only [View.ld_unit_zero (S := S64x4096) hz, View.ld_unit_zero (S := S4096x4096) hz, View.ld_unit_zero (S := S1x4096) hz,
    View.ld_unit_zero (S := S1x1) hz]
  have hs := RowValue.stored_eq (iblk m c 0 t) (iblk m c 1 t) (iblk m c 2 t) (iblk m c 3 t) (iblk m c 4 t) (iblk m c 5 t)
    (iblk m c 6 t)
  rw [hs]
  have hw : (iblk m c 1 t : S4096x4096.Idx → EReal) = V m c main_v6 := funext (blk1 m c t)
  have h2 : (iblk m c 2 t : S1x4096.Idx → EReal) = V m c main_v8 := funext (blk2 m c t)
  have h3 : (iblk m c 3 t : S1x4096.Idx → EReal) = V m c main_v9 := funext (blk3 m c t)
  have h4 : (iblk m c 4 t : S1x4096.Idx → EReal) = V m c main_v10 := funext (blk4 m c t)
  have h5 : (iblk m c 5 t : S1x4096.Idx → EReal) = V m c main_v11 := funext (blk5 m c t)
  have h6 : (iblk m c 6 t : S1x1.Idx → EReal) = V m c main_v12 := funext (blk6 m c t)
  rw [hw, h2, h3, h4, h5, h6]
  obtain ⟨-, -, -, -, -, -, -, -, -, -, -, -, -, -, e0, e1⟩ := idx_facts t
  have ht := point_lt t
  funext j
  revert j
  show ∀ j : S64x4096.Idx, matResult (M := 64) (iblk m c 0 t) (V m c main_v6) (V m c main_v8) (V m c main_v9) (V m c main_v10)
      (V m c main_v11) (V m c main_v12) j = wholeResult m c (((cfg0.win 7).blk t).view.emb j)
  intro j
  obtain ⟨r, o, rfl⟩ : ∃ (r : Fin 64) (o : Fin 4096), j = ix2 r o := ⟨j 0, j 1, eq_ix2 j⟩
  have hr : t.val * 64 + r.val < 16384 := by have := r.isLt; omega
  have he : ((cfg0.win 7).blk t).view.emb (ix2 r o) = (ix2 ⟨t.val * 64 + r.val, hr⟩ o : S16384x4096.Idx) :=
    funext fun a => Fin.ext (by
      match a with
      | ⟨0, _⟩ => show win0_7.index t (0 : Fin 2) * 64 + 1 * r.val = t.val * 64 + r.val; omega
      | ⟨1, _⟩ => show win0_7.index t (1 : Fin 2) * 4096 + 1 * o.val = o.val; omega)
  rw [he]
  exact matResult_block (V m c main_v7) (iblk m c 0 t) (V m c main_v6) (V m c main_v8) (V m c main_v9) (V m c main_v10)
    (V m c main_v11) (V m c main_v12) r o ⟨t.val * 64 + r.val, hr⟩ (fun k => blk0 m c t r k hr)

/-- An index of the result matrix is in point t's block iff each coordinate is in the block's range on its axis. -/
theorem mem_blk (t : Fin cfg0.N) (i : S16384x4096.Idx) :
    i ∈ ((cfg0.win 7).blk t).view.set ↔ ∀ a : Fin 2, win0_7.index t a * S64x4096.size a ≤ (i a).val
      ∧ (i a).val < win0_7.index t a * S64x4096.size a + S64x4096.size a := by
  show i ∈ ((View.whole main_v13).slice (win0_7.rect t)).set ↔ _
  rw [View.set_slice_whole, Rect.mem_set_unit]
  exact Iff.rfl

/-- Every row of the result matrix is in the block of the point row / 64, which writes back. -/
theorem cover (i : S16384x4096.Idx) :
    ∃ t : Fin cfg0.N, (cfg0.win 7).flush t = true ∧ i ∈ ((cfg0.win 7).blk t).view.set := by
  have hi0 : (i 0).val < 16384 := (i 0).isLt
  have hi1 : (i 1).val < 4096 := (i 1).isLt
  have hN : grid0.N = 256 := N_0
  let t : Fin cfg0.N := ⟨(i 0).val / 64, by show (i 0).val / 64 < grid0.N; rw [hN]; omega⟩
  have htv : t.val = (i 0).val / 64 := rfl
  obtain ⟨-, -, -, -, -, -, -, -, -, -, -, -, -, -, e0, e1⟩ := idx_facts t
  refine ⟨t, flush0_7 t, ?_⟩
  rw [mem_blk]
  intro a
  match a with
  | ⟨0, _⟩ =>
    show win0_7.index t (0 : Fin 2) * 64 ≤ (i 0).val ∧ (i 0).val < win0_7.index t (0 : Fin 2) * 64 + 64
    omega
  | ⟨1, _⟩ =>
    show win0_7.index t (1 : Fin 2) * 4096 ≤ (i 1).val ∧ (i 1).val < win0_7.index t (1 : Fin 2) * 4096 + 4096
    omega

/-- THE REGION'S RESULT ARRAY after the run is the result matrix. -/
theorem final (c : Dev nD) : (dats m 0 c).arrAt 7 cfg0.N = wholeResult m c :=
  (dats m 0 c).arrAt_eq_of_cover 7 (wholeResult m c) (fun t _ => flushed_eq m c t) cover

end Cert.KernelIdeal.BlockValue

end
-- ==== Proof.KernelHost.lean ====
/-
  The kernel program's host lines, read as values.

  Before the region the program makes the ternary weight (sign of the weight where its absolute value is at least the
  threshold word, the zero word elsewhere), transposes it and changes its format; reshapes the input to a matrix of
  16384 rows; and reshapes the four channel vectors to rows and the quantisation scale to a one-entry matrix. So each
  window's array, as the region finds it, is that operation of an argument array as launched. After the region the
  one host line reshapes the region's result matrix back to f32[8, 2048, 4096].
-/
import proofs.«111100_j43576738185534_1_alg».proof.Proof.Gen.KernelIdeal.Frame
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The ternary weight as the host lines compute it from the weight array. -/
def ternary (w : FVec Ideal S4096x4096 .f32) : FVec Ideal S4096x4096 .f32 :=
  select (cmpf .olt (Host.absf w) (broadcastInDim S4096x4096 ![] Gen.bcast_S_S4096x4096 (constant (F := Ideal) S_ .f32 0x3DCCCCCD#32)))
    (broadcastInDim S4096x4096 ![] Gen.bcast_S_S4096x4096 (id (constant (F := Ideal) S_ .f32 0x00000000#32)))
    (Host.sign w)

/-- The region finds the input reshaped to 16384 rows. -/
theorem V_main_v7 (c : Dev nD) :
    (V m c main_v7 : S16384x4096.Idx → EReal)
      = shapeCast S16384x4096 (m ((c : Thread nD τ).loc main_arg0)) Gen.shapeCasts_S8x2048x4096_S16384x4096 := by
  dsimp only [V, V0]
  simp only [hostOps0, hostOps0_1, hostOps0_2, List.flatten_cons, List.flatten_nil, List.append_nil, List.cons_append,
    List.nil_append]
  after_results
  rfl

/-- The region finds the ternary weight transposed (its format changed, which is the identity on extended reals). -/
theorem V_main_v6 (c : Dev nD) :
    (V m c main_v6 : S4096x4096.Idx → EReal)
      = truncf .bf16 (transpose S4096x4096 [1, 0] (ternary (m ((c : Thread nD τ).loc main_arg1))) Gen.transposes_S4096x4096_S4096x4096_1_0)
          Gen.bitsLt_bf16_f32 := by
  dsimp only [V, V0]
  simp only [hostOps0, hostOps0_1, hostOps0_2, List.flatten_cons, List.flatten_nil, List.append_nil, List.cons_append,
    List.nil_append]
  after_results
  rfl

/-- The region finds each channel vector as a row. -/
theorem V_main_v8 (c : Dev nD) :
    (V m c main_v8 : S1x4096.Idx → EReal) = shapeCast S1x4096 (m ((c : Thread nD τ).loc main_arg2)) Gen.shapeCasts_S4096_S1x4096 := by
  dsimp only [V, V0]
  simp only [hostOps0, hostOps0_1, hostOps0_2, List.flatten_cons, List.flatten_nil, List.append_nil, List.cons_append,
    List.nil_append]
  after_results
  rfl

theorem V_main_v9 (c : Dev nD) :
    (V m c main_v9 : S1x4096.Idx → EReal) = shapeCast S1x4096 (m ((c : Thread nD τ).loc main_arg3)) Gen.shapeCasts_S4096_S1x4096 := by
  dsimp only [V, V0]
  simp only [hostOps0, hostOps0_1, hostOps0_2, List.flatten_cons, List.flatten_nil, List.append_nil, List.cons_append,
    List.nil_append]
  after_results
  rfl

theorem V_main_v10 (c : Dev nD) :
    (V m c main_v10 : S1x4096.Idx → EReal) = shapeCast S1x4096 (m ((c : Thread nD τ).loc main_arg4)) Gen.shapeCasts_S4096_S1x4096 := by
  dsimp only [V, V0]
  simp only [hostOps0, hostOps0_1, hostOps0_2, List.flatten_cons, List.flatten_nil, List.append_nil, List.cons_append,
    List.nil_append]
  after_results
  rfl

theorem V_main_v11 (c : Dev nD) :
    (V m c main_v11 : S1x4096.Idx → EReal) = shapeCast S1x4096 (m ((c : Thread nD τ).loc main_arg5)) Gen.shapeCasts_S4096_S1x4096 := by
  dsimp only [V, V0]
  simp only [hostOps0, hostOps0_1, hostOps0_2, List.flatten_cons, List.flatten_nil, List.append_nil, List.cons_append,
    List.nil_append]
  after_results
  rfl

/-- The region finds the quantisation scale as a one-entry matrix. -/
theorem V_main_v12 (c : Dev nD) :
    (V m c main_v12 : S1x1.Idx → EReal) = shapeCast S1x1 (m ((c : Thread nD τ).loc main_arg6)) Gen.shapeCasts_S1_S1x1 := by
  dsimp only [V, V0]
  simp only [hostOps0, hostOps0_1, hostOps0_2, List.flatten_cons, List.flatten_nil, List.append_nil, List.cons_append,
    List.nil_append]
  after_results
  rfl

/-- The program's result is the region's result matrix reshaped to f32[8, 2048, 4096]. -/
theorem tail_main_v14 (c : Dev nD) :
    (Pipeline.afterTail₀ cfgs (dats m) 0 (V0 m) [hostOps1] c main_v14 : S8x2048x4096.Idx → EReal)
      = shapeCast S8x2048x4096 ((dats m 0 c).arrAt 7 cfg0.N) Gen.shapeCasts_S16384x4096_S8x2048x4096 := by
  unfold Pipeline.afterTail₀
  show StableHlo.after hostOps1 _ (Proc.devRef .tc main_v14) = _
  after_results
  exact congrArg (fun A => shapeCast S8x2048x4096 A Gen.shapeCasts_S16384x4096_S8x2048x4096)
    (Pipeline.withArrays_arr spec0 launch0.win.arr_inj c _ _ 7)

end Cert.KernelIdeal.HostValue

end
-- ==== Proof.Relayout.lean ====
/-
  The matrix layout of the computation is the array layout.

  f32[8, 2048, 4096] reshaped to a matrix of 16384 rows keeps the row-major position: row p · 2048 + t of the matrix is
  the input row (p, t, ·), and reshaping a result matrix back puts its row p · 2048 + t at (p, t, ·). A transposed
  weight read at (k, o) is the weight at (o, k); a channel vector reshaped to a row reads its channel; a one-entry
  vector reshaped to a one-entry matrix reads its entry. So computing the row function on the 16384 matrix rows
  against the transposed weight and the row vectors, and reshaping back, is the specification's result array.
-/
import proofs.«111100_j43576738185534_1_alg».proof.Proof.RowSpec
import Idealize.ShloMosaic.Lib.Pipeline.Value
import Idealize.ShloMosaic.Lib.ValueLayout

noncomputable section

namespace Cert.RowQuant

open Idealize.ShloMosaic Idealize.ShloMosaic.ValueIdx

/-- The input reshaped to 16384 rows reads, at row p · 2048 + t, the input row (p, t, ·). -/
theorem flatten_apply {α : Type} (x : (⟨3, ![8, 2048, 4096]⟩ : Shape).Idx → α)
    (h : (⟨3, ![8, 2048, 4096]⟩ : Shape).ShapeCasts ⟨2, ![16384, 4096]⟩) (p : Fin 8) (t : Fin 2048) (k : Fin 4096)
    (hr : p.val * 2048 + t.val < 16384) :
    shapeCast ⟨2, ![16384, 4096]⟩ x h (ix2 ⟨p.val * 2048 + t.val, hr⟩ k) = x (ix3 p t k) :=
  shapeCast_apply x h _ _ (by
    rw [Shape.rowMajor_val_three, Shape.rowMajor_val_two]
    show (p.val * 2048 + t.val) * 4096 + k.val = (p.val * 2048 + t.val) * 4096 + k.val
    rfl)

/-- A matrix of 16384 rows reshaped to [8, 2048, 4096] reads, at (p, t, ·), its row p · 2048 + t. -/
theorem unflatten_apply {α : Type} (y : (⟨2, ![16384, 4096]⟩ : Shape).Idx → α)
    (h : (⟨2, ![16384, 4096]⟩ : Shape).ShapeCasts ⟨3, ![8, 2048, 4096]⟩) (p : Fin 8) (t : Fin 2048) (o : Fin 4096)
    (hr : p.val * 2048 + t.val < 16384) :
    shapeCast ⟨3, ![8, 2048, 4096]⟩ y h (ix3 p t o) = y (ix2 ⟨p.val * 2048 + t.val, hr⟩ o) :=
  shapeCast_apply y h _ _ (by
    rw [Shape.rowMajor_val_three, Shape.rowMajor_val_two]
    show (p.val * 2048 + t.val) * 4096 + o.val = (p.val * 2048 + t.val) * 4096 + o.val
    rfl)

/-- THE MATRIX LAYOUT, RESHAPED BACK, IS THE SPECIFICATION. -/
theorem result_of_matResult (x : (⟨3, ![8, 2048, 4096]⟩ : Shape).Idx → EReal) (W : (⟨2, ![4096, 4096]⟩ : Shape).Idx → EReal)
    (b s g β : (⟨1, ![4096]⟩ : Shape).Idx → EReal) (q : (⟨1, ![1]⟩ : Shape).Idx → EReal)
    (hx : (⟨3, ![8, 2048, 4096]⟩ : Shape).ShapeCasts ⟨2, ![16384, 4096]⟩)
    (hW : (⟨2, ![4096, 4096]⟩ : Shape).Transposes [1, 0] ⟨2, ![4096, 4096]⟩)
    (hv : (⟨1, ![4096]⟩ : Shape).ShapeCasts ⟨2, ![1, 4096]⟩) (hq : (⟨1, ![1]⟩ : Shape).ShapeCasts ⟨2, ![1, 1]⟩)
    (hy : (⟨2, ![16384, 4096]⟩ : Shape).ShapeCasts ⟨3, ![8, 2048, 4096]⟩) :
    shapeCast ⟨3, ![8, 2048, 4096]⟩
        (matResult (M := 16384) (shapeCast ⟨2, ![16384, 4096]⟩ x hx) (transpose ⟨2, ![4096, 4096]⟩ [1, 0] W hW)
          (shapeCast ⟨2, ![1, 4096]⟩ b hv) (shapeCast ⟨2, ![1, 4096]⟩ s hv) (shapeCast ⟨2, ![1, 4096]⟩ g hv)
          (shapeCast ⟨2, ![1, 4096]⟩ β hv) (shapeCast ⟨2, ![1, 1]⟩ q hq)) hy
      = result x W b s g β q := by
  funext i
  obtain ⟨p, t, o, rfl⟩ : ∃ (p : Fin 8) (t : Fin 2048) (o : Fin 4096), i = ix3 p t o := ⟨i 0, i 1, i 2, eq_ix3 i⟩
  have hr : p.val * 2048 + t.val < 16384 := by have := p.isLt; have := t.isLt; omega
  rw [unflatten_apply _ hy p t o hr, matResult_apply, result_apply]
  have e1 : (fun k => shapeCast ⟨2, ![16384, 4096]⟩ x hx (ix2 ⟨p.val * 2048 + t.val, hr⟩ k)) = fun k => x (ix3 p t k) :=
    funext fun k => flatten_apply x hx p t k hr
  have e2 : (fun (o k : Fin 4096) => transpose ⟨2, ![4096, 4096]⟩ [1, 0] W hW (ix2 k o)) = fun o k => W (ix2 o k) :=
    funext fun o => funext fun k => transpose_ix2_apply W hW k o
  have e3 : ∀ v : (⟨1, ![4096]⟩ : Shape).Idx → EReal,
      (fun o : Fin 4096 => shapeCast ⟨2, ![1, 4096]⟩ v hv (ix2 (0 : Fin 1) o)) = fun o => v (ix1 o) :=
    fun v => funext fun o => shapeCast_a_1a_apply v hv 0 o
  have e4 : shapeCast ⟨2, ![1, 1]⟩ q hq (ix2 (0 : Fin 1) (0 : Fin 1)) = q (ix1 (0 : Fin 1)) := shapeCast_a_1a_apply q hq 0 0
  rw [e1, e2, e3 b, e3 s, e3 g, e3 β, e4]

end Cert.RowQuant

end
-- ==== Proof.KernelValue.lean ====
/-
  The kernel program's result, as one function of its arguments.

  The program's result is the region's result matrix reshaped to f32[8, 2048, 4096]; the region's result matrix is the
  row function on every row of the input matrix; and the arrays the region finds are reshapes of the arguments and the
  transposed ternary weight. Put together, the result is the specification's array of the arguments and the ternary
  weight, and every weakly fair execution of the program ends there with its arguments as launched.
-/
import proofs.«111100_j43576738185534_1_alg».proof.Proof.Gen.KernelIdeal.Frame
import proofs.«111100_j43576738185534_1_alg».proof.Proof.KernelBlocks
import proofs.«111100_j43576738185534_1_alg».proof.Proof.KernelHost
import proofs.«111100_j43576738185534_1_alg».proof.Proof.Relayout

noncomputable section

namespace Cert.KernelIdeal.RunValue

open Cert.KernelIdeal Cert.KernelIdeal.Gen Idealize.ShloMosaic Idealize.ShloMosaic.TcCoe Idealize.SL.Sem
open Cert.RowQuant

variable (m : (ℓ : Loc nD τ sig) → Buf (Elt Ideal) ℓ) (ρ : Dev nD → PrngReg)

/-- What the program returns on core `c`: the specification's array of the arguments as launched. -/
abbrev spec (c : Dev nD) : S8x2048x4096.Idx → EReal :=
  result (m ((c : Thread nD τ).loc main_arg0)) (HostValue.ternary (m ((c : Thread nD τ).loc main_arg1)))
    (m ((c : Thread nD τ).loc main_arg2)) (m ((c : Thread nD τ).loc main_arg3)) (m ((c : Thread nD τ).loc main_arg4))
    (m ((c : Thread nD τ).loc main_arg5)) (m ((c : Thread nD τ).loc main_arg6))

/-- A change of float format is the identity on extended reals. -/
theorem truncf_id (X : FVec Ideal S4096x4096 .f32) : (truncf .bf16 X Gen.bitsLt_bf16_f32 : S4096x4096.Idx → EReal) = X := rfl

/-- THE PROGRAM'S RESULT after the host line that follows the region. -/
theorem result_eq (c : Dev nD) :
    (Pipeline.afterTail₀ cfgs (dats m) 0 (V0 m) [hostOps1] c main_v14 : S8x2048x4096.Idx → EReal) = spec m c := by
  rw [HostValue.tail_main_v14, BlockValue.final]
  dsimp only [BlockValue.wholeResult]
  rw [HostValue.V_main_v7, HostValue.V_main_v6, HostValue.V_main_v8, HostValue.V_main_v9, HostValue.V_main_v10,
    HostValue.V_main_v11, HostValue.V_main_v12, truncf_id]
  exact result_of_matResult _ _ _ _ _ _ _ Gen.shapeCasts_S8x2048x4096_S16384x4096 Gen.transposes_S4096x4096_S4096x4096_1_0
    Gen.shapeCasts_S4096_S1x4096 Gen.shapeCasts_S1_S1x1 Gen.shapeCasts_S16384x4096_S8x2048x4096

/-- THE RUN: every weakly fair execution of the program terminates with its result at the specification's array and
    its arguments unchanged. -/
theorem run : θ_run defs (onTc (τ := τ) (main (F := Ideal))) ⟨m, fun _ => 0, ρ⟩ fun r => ∀ c : Dev nD,
      r.2.mem ((c.tc : Thread nD τ).loc main_v14) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v14 (Pipeline.mem_restRefs_of main_v14 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.RunValue

end
-- ==== Proof.RefRow.lean ====
/-
  The reference's result, read at one entry (p, t, o) of f32[8, 2048, 4096].

  The reference contracts the input's last axis with the ternary weight's last axis, adds the bias and multiplies by
  the scale (both broadcast along the channel axis), takes the mean and the mean squared deviation over the channel
  axis with a kept unit axis, normalises, applies gain and offset, divides by the one quantisation scale, and squashes
  to the grid of 127ths. Every stage reads, at (p, t, o), operands at indices whose first two coordinates are (p, t):
  so the entry is channel o of the row function of the input row (p, t, ·). The host's sum starts from the zero
  word, which is 0; its last step divides by the word for 127, which is the multiplication by 1/127.
-/
import proofs.«111100_j43576738185534_1_alg».proof.Proof.Gen.ReferenceIdeal.Read
import proofs.«111100_j43576738185534_1_alg».proof.Proof.RowSpec

noncomputable section

open scoped BigOperators

namespace Cert.ReferenceIdeal.RefValue

open Cert.ReferenceIdeal Cert.ReferenceIdeal.Read Idealize.ShloMosaic Idealize.ShloMosaic.ValueIdx Cert.RowQuant

variable (x0 : (⟨S8x2048x4096, .f32⟩ : BufTy).Contents (Elt Ideal)) (x1 : (⟨S4096x4096, .f32⟩ : BufTy).Contents (Elt Ideal))
  (x2 x3 x4 x5 : (⟨S4096, .f32⟩ : BufTy).Contents (Elt Ideal)) (x6 : (⟨S1, .f32⟩ : BufTy).Contents (Elt Ideal))

/-! ## The operand indices, by coordinates -/

theorem lidx5 (p : Fin 8) (t : Fin 2048) (o k : Fin 4096) : lidx_main_v5 (ix3 p t o) k = ix3 p t k :=
  funext fun a => Fin.ext (by match a with | ⟨0, _⟩ => rfl | ⟨1, _⟩ => rfl | ⟨2, _⟩ => rfl)
theorem ridx5 (p : Fin 8) (t : Fin 2048) (o k : Fin 4096) : ridx_main_v5 (ix3 p t o) k = ix2 o k :=
  funext fun a => Fin.ext (by match a with | ⟨0, _⟩ => rfl | ⟨1, _⟩ => rfl)
/-- A channel vector broadcast to [1, 1, 4096] and then to the whole array reads its channel. -/
theorem chan67 (p : Fin 8) (t : Fin 2048) (o : Fin 4096) : idx_main_v6 (idx_main_v7 (ix3 p t o)) = ix1 o :=
  funext fun a => Fin.ext (by match a with | ⟨0, _⟩ => rfl)
/-- The reduced row (p, t) with channel `k` put back. -/
theorem row12 (p : Fin 8) (t : Fin 2048) (u : Fin 1) (k : Fin 4096) : idx_main_v12 (idx_main_v13 (ix3 p t u)) k = ix3 p t k :=
  funext fun a => Fin.ext (by match a with | ⟨0, _⟩ => rfl | ⟨1, _⟩ => rfl | ⟨2, _⟩ => rfl)
/-- A kept-axis column broadcast along the channels reads its row's one entry. -/
theorem col16 (p : Fin 8) (t : Fin 2048) (o : Fin 4096) : idx_main_v16 (ix3 p t o) = ix3 p t (0 : Fin 1) :=
  funext fun a => Fin.ext (by match a with | ⟨0, _⟩ => rfl | ⟨1, _⟩ => rfl | ⟨2, _⟩ => rfl)
/-- The one quantisation scale, broadcast to [1, 1, 1] and then to the whole array. -/
theorem one3637 (p : Fin 8) (t : Fin 2048) (o : Fin 4096) : idx_main_v36 (idx_main_v37 (ix3 p t o)) = ix1 (0 : Fin 1) :=
  funext fun a => Fin.ext (by match a with | ⟨0, _⟩ => rfl)

/-! ## The stages at an entry -/

/-- The linear layer. -/
theorem v11_apply (p : Fin 8) (t : Fin 2048) (o : Fin 4096) :
    val_main_v11 (F := Ideal) x0 x1 x2 x3 (ix3 p t o)
      = affine (fun k => x0 (ix3 p t k)) (fun o k => val_main_v4 (F := Ideal) x1 (ix2 o k)) (fun o => x2 (ix1 o)) (fun o => x3 (ix1 o)) o := by
  rw [val_main_v11_apply, val_main_v8_apply, val_main_v5_apply, val_main_v7_apply, val_main_v6_apply, val_main_v10_apply,
    val_main_v9_apply]
  unfold affine
  simp only [lidx5, ridx5]
  rw [chan67]
  rw [show idx_main_v9 (idx_main_v10 (ix3 p t o)) = ix1 o from chan67 p t o]
  rfl

/-- The row as a function of the channel. -/
abbrev yrow (p : Fin 8) (t : Fin 2048) : Fin 4096 → EReal :=
  affine (fun k => x0 (ix3 p t k)) (fun o k => val_main_v4 (F := Ideal) x1 (ix2 o k)) (fun o => x2 (ix1 o)) (fun o => x3 (ix1 o))

/-- The kept-axis column of means. -/
theorem v15_apply (p : Fin 8) (t : Fin 2048) (u : Fin 1) :
    val_main_v15 (F := Ideal) x0 x1 x2 x3 (ix3 p t u) = mean (yrow x0 x1 x2 x3 p t) := by
  rw [val_main_v15_apply, val_main_v13_apply, val_main_v12_apply, val_main_v14_apply]
  unfold mean
  simp only [row12, v11_apply]
  show Ideal.div (Ideal.ofBits .f32 0x00000000#32 + _) (Ideal.ofBits .f32 0x45800000#32) = _
  rw [Ideal.ofBits_zero_f32, zero_add]

/-- The deviation from the mean (the reference computes it twice, from the same column). -/
theorem v17_apply (p : Fin 8) (t : Fin 2048) (o : Fin 4096) :
    val_main_v17 (F := Ideal) x0 x1 x2 x3 (ix3 p t o) = dev (yrow x0 x1 x2 x3 p t) o := by
  rw [val_main_v17_apply, val_main_v16_apply, col16, v15_apply, v11_apply]
  rfl

theorem v24_apply (p : Fin 8) (t : Fin 2048) (o : Fin 4096) :
    val_main_v24 (F := Ideal) x0 x1 x2 x3 (ix3 p t o) = dev (yrow x0 x1 x2 x3 p t) o := by
  rw [val_main_v24_apply, val_main_v23_apply, show idx_main_v23 (ix3 p t o) = ix3 p t (0 : Fin 1) from col16 p t o, v15_apply,
    v11_apply]
  rfl

/-- The reciprocal standard deviation, on the kept-axis column. -/
theorem v27_apply (p : Fin 8) (t : Fin 2048) (u : Fin 1) :
    val_main_v27 (F := Ideal) x0 x1 x2 x3 (ix3 p t u) = invStd (yrow x0 x1 x2 x3 p t) := by
  rw [val_main_v27_apply, val_main_v26_apply, val_main_v22_apply, val_main_v20_apply, val_main_v19_apply, val_main_v21_apply,
    val_main_v25_apply]
  unfold invStd
  simp only [show ∀ k, idx_main_v19 (idx_main_v20 (ix3 p t u)) k = ix3 p t k from row12 p t u, val_main_v18_apply, v17_apply]
  show Ideal.rsqrt (Ideal.div (Ideal.ofBits .f32 0x00000000#32 + _) (Ideal.ofBits .f32 0x45800000#32)
    + Ideal.ofBits .f32 0x3727C5AC#32) = _
  rw [Ideal.ofBits_zero_f32, zero_add]
  rfl

/-- The normalised, affine row. -/
theorem v35_apply (p : Fin 8) (t : Fin 2048) (o : Fin 4096) :
    val_main_v35 (F := Ideal) x0 x1 x2 x3 x4 x5 (ix3 p t o)
      = normed (yrow x0 x1 x2 x3 p t) (fun o => x4 (ix1 o)) (fun o => x5 (ix1 o)) o := by
  rw [val_main_v35_apply, val_main_v32_apply, val_main_v29_apply, val_main_v28_apply,
    show idx_main_v28 (ix3 p t o) = ix3 p t (0 : Fin 1) from col16 p t o, v27_apply, v24_apply,
    val_main_v31_apply, val_main_v30_apply, show idx_main_v30 (idx_main_v31 (ix3 p t o)) = ix1 o from chan67 p t o,
    val_main_v34_apply, val_main_v33_apply, show idx_main_v33 (idx_main_v34 (ix3 p t o)) = ix1 o from chan67 p t o]
  rfl

/-- THE REFERENCE'S ENTRY is the row function's channel. -/
theorem v44_apply (p : Fin 8) (t : Fin 2048) (o : Fin 4096) :
    val_main_v44 (F := Ideal) x0 x1 x2 x3 x4 x5 x6 (ix3 p t o)
      = result x0 (val_main_v4 (F := Ideal) x1) x2 x3 x4 x5 x6 (ix3 p t o) := by
  rw [val_main_v44_apply, val_main_v42_apply, val_main_v41_apply, val_main_v39_apply, val_main_v38_apply, v35_apply,
    val_main_v37_apply, val_main_v36_apply, one3637, val_main_v40_apply, val_main_v43_apply, result_apply]
  unfold rowOut
  exact quant_of_div _ _

/-- THE REFERENCE'S RESULT ARRAY is the specification's, with the ternary weight the reference computes. -/
theorem v44_eq : val_main_v44 (F := Ideal) x0 x1 x2 x3 x4 x5 x6 = result x0 (val_main_v4 (F := Ideal) x1) x2 x3 x4 x5 x6 := by
  funext i
  obtain ⟨p, t, o, rfl⟩ : ∃ (p : Fin 8) (t : Fin 2048) (o : Fin 4096), i = ix3 p t o := ⟨i 0, i 1, i 2, eq_ix3 i⟩
  exact v44_apply x0 x1 x2 x3 x4 x5 x6 p t o

end Cert.ReferenceIdeal.RefValue

end
-- ==== Proof.lean ====
/-
  The proof of `Cert.Claim`: the kernel — a 64-row-tiled ternary-weight linear layer, LayerNorm over the 4096 output
  channels, tanh and rounding to the grid of 127ths — computes, on the extended reals, what its jnp reference computes.

  Both programs make the same ternary weight on the host. The kernel's program reshapes the input to 16384 rows, runs
  the body on 256 blocks of 64 rows against the transposed weight, and reshapes the result back; the reference contracts
  the input's channel axis with the weight's directly. Entry (p, t, o) of either result is one and the same function of
  the input row (p, t, ·), the ternary weight, the bias, scale, gain and offset vectors and the quantisation scale: the
  matrix product is the same finite sum of the same products, the means are the same finite sums divided by the same
  word, and the kernel's last factor, the named rational 1/127, is the reference's division by 127. No finiteness of
  the inputs is needed for any of this. The frames of the two kernel programs are the generated frame certificates; the
  reference's frame is its generated run with the result dropped; the one rewrite of the idealisation, the named 1/127,
  is its rule's statement.
-/
import proofs.«111100_j43576738185534_1_alg».proof.Defs
import proofs.«111100_j43576738185534_1_alg».proof.Proof.Gen.Kernel
import proofs.«111100_j43576738185534_1_alg».proof.Proof.Gen.Kernel.Frame
import proofs.«111100_j43576738185534_1_alg».proof.Proof.Gen.KernelIdeal
import proofs.«111100_j43576738185534_1_alg».proof.Proof.Gen.KernelIdeal.Frame
import proofs.«111100_j43576738185534_1_alg».proof.Proof.Gen.ReferenceIdeal
import proofs.«111100_j43576738185534_1_alg».proof.Proof.Gen.ReferenceIdeal.Run
import proofs.«111100_j43576738185534_1_alg».proof.Proof.Gen.ReferenceIdeal.Read
import proofs.«111100_j43576738185534_1_alg».proof.Proof.Gen.Pre_finite_inputs
import proofs.«111100_j43576738185534_1_alg».proof.Proof.KernelValue
import proofs.«111100_j43576738185534_1_alg».proof.Proof.RefRow
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealisation's one rewrite: the table gives "inv_127" the value 1/127, which the printed constant is at Ideal. -/
theorem preserves : Cert.preserves_Kernel_KernelIdeal :=
  IdealRules.named_const.statement Cert.KernelIdeal.κ "inv_127" .f32 0x3C010204#32 ((1 / 127 : ℝ) : EReal) rfl

/-- The two programs' host lines make the same ternary weight of the same weight array. -/
theorem ternary_eq (w : FVec Ideal Cert.KernelIdeal.S4096x4096 .f32) :
    Cert.KernelIdeal.HostValue.ternary w = Cert.ReferenceIdeal.Read.val_main_v4 (F := Ideal) w := rfl

/-- Both programs end at the specification's array of their (agreeing) arguments. -/
theorem algebraic : Cert.algebraic_KernelIdeal_ReferenceIdeal := by
  intro m ρ m' ρ' _ hagree
  refine ⟨fun c => Cert.KernelIdeal.RunValue.spec m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v44_eq, Cert.ReferenceIdeal.RefValue.v44_eq, a0, a1, a2, a3, a4, a5, a6, ← ternary_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
